-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S256x4096 : Shape := ⟨2, ![256, 4096]⟩
abbrev S4096x1024 : Shape := ⟨2, ![4096, 1024]⟩
abbrev S1x1024 : Shape := ⟨2, ![1, 1024]⟩
abbrev S256x1024 : Shape := ⟨2, ![256, 1024]⟩

abbrev nBuf : Space → Nat
  | .hbm => 5
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S4096x1024, .f32⟩
  | .local _ .vmem, ⟨3, _⟩ => ⟨S4096x1024, .f32⟩
  | .local _ .vmem, ⟨4, _⟩ => ⟨S1x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S4096x1024, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4096_S1x4096 : S4096.ShapeCasts S1x4096
  inb_S4096x1024_S4096x1024_0_0 : ∀ a, (![0, 0] : Fin 2 → Nat) a + S4096x1024.size a ≤ S4096x1024.size a
  h_S4096x1024 : 0 < S4096x1024.numel
  bitsLt_bf16_f32 : FTy.bits .bf16 < FTy.bits .f32
  shapeCasts_S4096x1024_S4096x1024 : S4096x1024.ShapeCasts S4096x1024
  packedbf16_S4096x1024_S4096x1024_0_0 : (Rect.unit (s := S4096x1024) ![0, 0] S4096x1024.size inb_S4096x1024_S4096x1024_0_0).PackedRows (EltTy.packing .bf16)
  inb_S256x4096_S256x4096_0_0 : ∀ a, (![0, 0] : Fin 2 → Nat) a + S256x4096.size a ≤ S256x4096.size a
  h_S256x4096 : 0 < S256x4096.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S256x1024_S256x1024_0_0 : ∀ a, (![0, 0] : Fin 2 → Nat) a + S256x1024.size a ≤ S256x1024.size a
  h_S256x1024 : 0 < S256x1024.numel
  dot_S256x4096_S4096x1024_S256x1024_1_0_0_1_n_n_wf : DotDims.WF S256x4096 S4096x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x4096.size a
  hwx0_1 : ∀ i : grid0.Coords, EltTy.bits .f32 = 32 ∨ (Rect.block (s := S4096x4096) S4096x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S8192x4096.size a
  hwx0_3 : ∀ i : grid0.Coords, EltTy.bits .f32 = 32 ∨ (Rect.block (s := S8192x4096) S256x1024.size (cc0_transform_3 i) (hinb0_3 i)).WholeWords (EltTy.packing .f32)

variable [Facts₀]

def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S1x4096, .f32⟩
  | .hbm, ⟨5, _⟩ => ⟨S8192x4096, .f32⟩
  | .hbm, ⟨6, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.RowAffine.lean ====
/-
  What both programs compute, as one function of the three argument arrays.

  The arrays are x : [8192, 4096], w : [4096, 4096] and b : [4096]; the result is the array [8192, 4096] whose
  entry (i, j) is

      Σ_k x(i, k) · w(k, j)  +  b(j),          k ranging over the 4096 columns of x (= rows of w),

  an affine map applied to every row of x. Everything is read on the extended reals, where a change of float
  format is the identity; the sum is one finite sum over `Fin 4096`, the same on both sides, so no law of
  arithmetic beyond reading each operation at an index is needed, and in particular nothing about finiteness.
-/
import Idealize.ShloMosaic.PureOps.Ideal
import Idealize.ShloMosaic.Lib.ValueIdx

noncomputable section

open scoped BigOperators

namespace Cert.RowAffine

open Idealize.ShloMosaic Idealize.ShloMosaic.ValueIdx

/-- The shapes of the three arguments and of the result. -/
abbrev SX : Shape := ⟨2, ![8192, 4096]⟩
abbrev SW : Shape := ⟨2, ![4096, 4096]⟩
abbrev SB : Shape := ⟨1, ![4096]⟩

/-- Entry (i, j) of x·w + b: the inner product of row i of x with column j of w, plus b(j). -/
def rowAffine (x : FVec Ideal SX .f32) (w : FVec Ideal SW .f32) (b : FVec Ideal SB .f32) : FVec Ideal SX .f32 :=
  fun j => (∑ k : Fin 4096, x (ix2 (j 0) k) * w (ix2 k (j 1))) + b (ix1 (j 1))

/-- The same entry at explicit coordinates. -/
theorem rowAffine_apply (x : FVec Ideal SX .f32) (w : FVec Ideal SW .f32) (b : FVec Ideal SB .f32)
    (i : Fin 8192) (j : Fin 4096) :
    rowAffine x w b (ix2 i j) = (∑ k : Fin 4096, x (ix2 i k) * w (ix2 k j)) + b (ix1 j) := rfl

end Cert.RowAffine

end
-- ==== Proof.RefSide.lean ====
/-
  The reference computes the row-wise affine map.

  Its four host operations are: the product x·w contracting x's columns with w's rows; the vector b recast as a
  row [1, 4096]; that row repeated down the 8192 rows; the entrywise sum. Read at an index (i, j) the product is
  Σ_k x(i, k) · w(k, j), the repeated row is b(j), and the sum of the two is the entry of `rowAffine`.
-/
import proofs.«161255_g44427141710512_cont_8to1_c_84_19_alg».proof.Proof.Gen.ReferenceIdeal.Read
import proofs.«161255_g44427141710512_cont_8to1_c_84_19_alg».proof.Proof.RowAffine

noncomputable section

open scoped BigOperators

namespace Cert.RowAffine.Ref

open Idealize.ShloMosaic Idealize.ShloMosaic.ValueIdx Cert.RowAffine
open Cert.ReferenceIdeal Cert.ReferenceIdeal.Read

/-- The reference's last stage, as a function of the three arguments, is `rowAffine`. -/
theorem stage_eq (x : FVec Ideal SX .f32) (w : FVec Ideal SW .f32) (b : FVec Ideal SB .f32) :
    val_main_v3 (F := Ideal) x w b = rowAffine x w b := by
  funext i
  have el : ∀ k : Fin 4096, lidx_main_v0 i k = ix2 (i 0) k :=
    fun k => funext fun a => by match a with | ⟨0, _⟩ => rfl | ⟨1, _⟩ => rfl
  have er : ∀ k : Fin 4096, ridx_main_v0 i k = ix2 k (i 1) :=
    fun k => funext fun a => by match a with | ⟨0, _⟩ => rfl | ⟨1, _⟩ => rfl
  have eb : idx_main_v1 (idx_main_v2 i) = ix1 (i 1) :=
    funext fun a => by match a with | ⟨0, _⟩ => rfl
  rw [val_main_v3_apply, val_main_v0_apply, val_main_v2_apply, val_main_v1_apply]
  simp only [el, er, eb]
  rfl

end Cert.RowAffine.Ref

end
-- ==== Proof.Tiling.lean ====
/-
  How the grid cuts the arrays.

  The 128 grid points are numbered n = 32·a + r, with a = n / 32 the column panel (4 panels of 1024 columns) and
  r = n % 32 the row block (32 blocks of 256 rows); the row blocks of one panel are visited one after the other. Point n
  works on rows 256·r … 256·r + 255 of x, on columns 1024·a … 1024·a + 1023 of w and of the bias, and writes that
  [256, 1024] block of the result. Entry (p, q) of the block a point computes from its pieces is entry
  (256·r + p, 1024·a + q) of x·w + b: the sum over k is the same sum.
-/
import proofs.«161255_g44427141710512_cont_8to1_c_84_19_alg».proof.Proof.RowAffine

noncomputable section

open scoped BigOperators

namespace Cert.RowAffine

open Idealize.ShloMosaic Idealize.ShloMosaic.ValueIdx

/-- Row p of point n's row block, as a row of x. -/
def rowOf (n : ℕ) (p : Fin 256) : Fin 8192 :=
  ⟨256 * (n % 32) + p.val, by have := p.isLt; have := Nat.mod_lt n (show 0 < 32 by decide); omega⟩

/-- Column q of point n's column panel, as a column of w. (Reduced mod 4 so that it is a column for every natural
    number n; at a grid point n / 32 is below 4 already.) -/
def colOf (n : ℕ) (q : Fin 1024) : Fin 4096 :=
  ⟨1024 * (n / 32 % 4) + q.val, by have := q.isLt; have := Nat.mod_lt (n / 32) (show 0 < 4 by decide); omega⟩

/-- The rows of x that point n works on. -/
def xBlock (x : FVec Ideal SX .f32) (n : ℕ) : (⟨2, ![256, 4096]⟩ : Shape).Idx → EReal :=
  fun y => x (ix2 (rowOf n (y 0)) (y 1))

/-- The columns of w that point n works on: its panel. -/
def panelOf (w : FVec Ideal SW .f32) (n : ℕ) : (⟨2, ![4096, 1024]⟩ : Shape).Idx → EReal :=
  fun y => w (ix2 (y 0) (colOf n (y 1)))

/-- The entries of b for point n's columns, as a row [1, 1024]. -/
def biasPiece (b : FVec Ideal SB .f32) (n : ℕ) : (⟨2, ![1, 1024]⟩ : Shape).Idx → EReal :=
  fun y => b (ix1 (colOf n (y 1)))

/-- A point that is not the first of its pass has the panel of the point before it. -/
theorem colOf_pred (n : ℕ) (h : ¬n % 32 = 0) : colOf (n - 1) = colOf n := by
  funext q
  apply Fin.ext
  show 1024 * ((n - 1) / 32 % 4) + q.val = 1024 * (n / 32 % 4) + q.val
  have e : (n - 1) / 32 = n / 32 := by omega
  rw [e]

theorem panelOf_pred (w : FVec Ideal SW .f32) (n : ℕ) (h : ¬n % 32 = 0) : panelOf w (n - 1) = panelOf w n := by
  unfold panelOf
  rw [colOf_pred n h]

/-- Entry (p, q) of the block computed from point n's pieces is entry (rowOf n p, colOf n q) of x·w + b. -/
theorem block_entry (x : FVec Ideal SX .f32) (w : FVec Ideal SW .f32) (b : FVec Ideal SB .f32) (n : ℕ)
    (p : Fin 256) (q : Fin 1024) :
    (∑ k : Fin 4096, xBlock x n (ix2 p k) * panelOf w n (ix2 k q)) + biasPiece b n (ix2 (0 : Fin 1) q)
      = rowAffine x w b (ix2 (rowOf n p) (colOf n q)) := rfl

end Cert.RowAffine

end
-- ==== Proof.Blocks.lean ====
/-
  The pieces a grid point is handed, as restrictions of the argument arrays.

  Block maps, decided once over the 128 points: at point n = 32·a + r the x window is at block (r, 0), the w window
  and the bias window at block (0, a), the output window at block (r, a). A coordinate inside a block is
  block index × block extent + the coordinate within the block, so the x block is rows 256·r … of x, the w block is
  columns 1024·a … of w, and the bias block is those columns of the bias row. Before the launch the host only recasts
  the vector b as a row [1, 4096], whose entry (0, j) is b(j); x and w reach the launch as they are.
-/
import proofs.«161255_g44427141710512_cont_8to1_c_84_19_alg».proof.Proof.Gen.KernelIdeal.Frame
import proofs.«161255_g44427141710512_cont_8to1_c_84_19_alg».proof.Proof.Tiling
import Idealize.ShloMosaic.Lib.ValueLayout
import Idealize.ShloMosaic.Lib.StableHlo.Run

noncomputable section

namespace Cert.RowAffine.Blocks

open Idealize.ShloMosaic Idealize.ShloMosaic.TcCoe Idealize.SL.Sem Idealize.ShloMosaic.ValueIdx
open Cert.KernelIdeal Cert.KernelIdeal.Gen Cert.RowAffine

variable (m : (ℓ : Loc nD τ sig) → Buf (Elt Ideal) ℓ)

/-- Where each window's block is, at every grid point. -/
theorem block_maps : ∀ t : Fin cfg0.N,
    win0_0.index t (0 : Fin 2) = t.val % 32 ∧ win0_0.index t (1 : Fin 2) = 0
    ∧ win0_1.index t (0 : Fin 2) = 0 ∧ win0_1.index t (1 : Fin 2) = t.val / 32
    ∧ win0_2.index t (0 : Fin 2) = 0 ∧ win0_2.index t (1 : Fin 2) = t.val / 32
    ∧ win0_3.index t (0 : Fin 2) = t.val % 32 ∧ win0_3.index t (1 : Fin 2) = t.val / 32 :=
  (by decide +kernel : ∀ t : Fin grid0.N, _)

/-- A grid point's number is below 128. -/
theorem point_lt (t : Fin cfg0.N) : t.val < 128 := lt_of_lt_of_eq t.isLt (show cfg0.N = 128 from N_0)

/-- The x window's block at point t is the point's rows of x. -/
theorem xBlock_eq (c : Dev nD) (t : Fin cfg0.N) :
    (iblk m c 0 t : Vec Ideal S256x4096 .f32) = xBlock (m ((c : Thread nD τ).loc main_arg0)) t.val := by
  obtain ⟨e0, e1, -⟩ := block_maps t
  funext y
  show V m c main_arg0 (((cfg0.win 0).blk t).view.emb y) = m ((c : Thread nD τ).loc main_arg0) (ix2 (rowOf t.val (y 0)) (y 1))
  rw [V_main_arg0]
  refine congrArg _ (funext fun a => Fin.ext ?_)
  match a with
  | ⟨0, _⟩ => show win0_0.index t (0 : Fin 2) * 256 + 1 * (y 0).val = 256 * (t.val % 32) + (y 0).val; omega
  | ⟨1, _⟩ => show win0_0.index t (1 : Fin 2) * 4096 + 1 * (y 1).val = (y 1).val; omega

/-- The w window's block at point t is the point's column panel of w. -/
theorem wBlock_eq (c : Dev nD) (t : Fin cfg0.N) :
    (iblk m c 1 t : Vec Ideal S4096x1024 .f32) = panelOf (m ((c : Thread nD τ).loc main_arg1)) t.val := by
  obtain ⟨-, -, e0, e1, -⟩ := block_maps t
  have hN := point_lt t
  funext y
  show V m c main_arg1 (((cfg0.win 1).blk t).view.emb y) = m ((c : Thread nD τ).loc main_arg1) (ix2 (y 0) (colOf t.val (y 1)))
  rw [V_main_arg1]
  refine congrArg _ (funext fun a => Fin.ext ?_)
  match a with
  | ⟨0, _⟩ => show win0_1.index t (0 : Fin 2) * 4096 + 1 * (y 0).val = (y 0).val; omega
  | ⟨1, _⟩ => show win0_1.index t (1 : Fin 2) * 1024 + 1 * (y 1).val = 1024 * (t.val / 32 % 4) + (y 1).val; omega

/-- The array the bias window stages: the host's recast of b as a row. -/
theorem biasRow_eq (c : Dev nD) :
    (V m c main_v0 : S1x4096.Idx → EReal)
      = shapeCast S1x4096 (m ((c : Thread nD τ).loc main_arg2)) shapeCasts_S4096_S1x4096 := by
  dsimp only [V, hostOps0]
  after_results
  rfl

/-- The bias window's block at point t is the point's columns of b, as a row. -/
theorem biasPiece_eq (c : Dev nD) (t : Fin cfg0.N) :
    (iblk m c 2 t : Vec Ideal S1x1024 .f32) = biasPiece (m ((c : Thread nD τ).loc main_arg2)) t.val := by
  obtain ⟨-, -, -, -, e0, e1, -⟩ := block_maps t
  have hN := point_lt t
  funext y
  show V m c main_v0 (((cfg0.win 2).blk t).view.emb y) = m ((c : Thread nD τ).loc main_arg2) (ix1 (colOf t.val (y 1)))
  have hy : (y 0).val < 1 := idx2_lt0 y
  have hemb : ((cfg0.win 2).blk t).view.emb y = ix2 (0 : Fin 1) (colOf t.val (y 1)) :=
    funext fun a => Fin.ext (by
      match a with
      | ⟨0, _⟩ => show win0_2.index t (0 : Fin 2) * 1 + 1 * (y 0).val = 0; omega
      | ⟨1, _⟩ => show win0_2.index t (1 : Fin 2) * 1024 + 1 * (y 1).val = 1024 * (t.val / 32 % 4) + (y 1).val; omega)
  rw [hemb, biasRow_eq]
  exact shapeCast_a_1a_apply _ _ _ _

end Cert.RowAffine.Blocks

end
-- ==== Proof.Pieces.lean ====
/-
  What one run of the body leaves behind, as values.

  The body has two courses. At the first point of a pass over the rows (the pass's column panel is new) it recasts the
  loaded block of w into the panel buffer, reads the panel back, and stores the output block computed from the x
  block, that panel and the bias piece. At every other point it leaves the panel buffer alone and computes the output
  block from what the buffer already holds. Each buffer is written by one store through its whole rectangle, so what
  it ends holding is that store's value; a load of a whole buffer reads its contents; and the read-back of the panel
  just stored reads the stored value. Nothing here depends on how floats are read.
-/
import proofs.«161255_g44427141710512_cont_8to1_c_84_19_alg».proof.Proof.Gen.KernelIdeal.Frame
import Idealize.ShloMosaic.Lib.Pipeline.Value
import Idealize.ShloMosaic.Lib.Tactic

noncomputable section

namespace Cert.RowAffine.Pieces

open Idealize.ShloMosaic Idealize.ShloMosaic.TcCoe Idealize.SL.Sem
open Cert.KernelIdeal Cert.KernelIdeal.Gen

variable {F : FTy → Type} [FloatOps F]

/-- The offsets of every load and store of the body: the buffer's origin. -/
theorem origin : (![0, 0] : Fin 2 → Nat) = fun _ => 0 := funext fun a => by fin_cases a <;> rfl

/-- First point of a pass: the panel buffer ends holding the recast of the loaded block of w. -/
theorem panel_first (c : Dev nD) (i : grid0.Coords) (a2 : Memref sig .tc .vmem S256x4096 .f32) (h2 : a2.IsWhole)
    (a3 : Memref sig .tc .vmem S4096x1024 .f32) (h3 : a3.IsWhole) (a4 : Memref sig .tc .vmem S1x1024 .f32) (h4 : a4.IsWhole)
    (a5 : Memref sig .tc .vmem S256x1024 .f32) (h5 : a5.IsWhole) (a6 : Memref sig .tc .vmem S4096x1024 .bf16) (h6 : a6.IsWhole)
    (hc : cond0_0 i) (x0 : Vec F S256x4096 .f32) (x1 : Vec F S4096x1024 .f32) (x2 : Vec F S1x1024 .f32) :
    sout0_A_0 c i a2 h2 a3 h3 a4 h4 a5 h5 a6 h6 hc x0 x1 x2 = k0_pay1 x1 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero origin]
  simp only [View.readAt_eq_ld, h3.read_unread, View.ld_unit_zero (S := S4096x1024) origin]

/-- First point of a pass: the output block is computed from the x block, the panel just stored, and the bias piece. -/
theorem block_first (c : Dev nD) (i : grid0.Coords) (a2 : Memref sig .tc .vmem S256x4096 .f32) (h2 : a2.IsWhole)
    (a3 : Memref sig .tc .vmem S4096x1024 .f32) (h3 : a3.IsWhole) (a4 : Memref sig .tc .vmem S1x1024 .f32) (h4 : a4.IsWhole)
    (a5 : Memref sig .tc .vmem S256x1024 .f32) (h5 : a5.IsWhole) (a6 : Memref sig .tc .vmem S4096x1024 .bf16) (h6 : a6.IsWhole)
    (hc : cond0_0 i) (x0 : Vec F S256x4096 .f32) (x1 : Vec F S4096x1024 .f32) (x2 : Vec F S1x1024 .f32) :
    out0_A_3 c i a2 h2 a3 h3 a4 h4 a5 h5 a6 h6 hc x0 x1 x2 = k0_pay2 x0 (k0_pay1 x1) x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero origin, View.readCov_unit_zero (S := S4096x1024) _ origin]
  simp only [View.readAt_eq_ld, h2.read_unread, h3.read_unread, h4.read_unread, View.ld_unit_zero (S := S256x4096) origin,
    View.ld_unit_zero (S := S4096x1024) origin, View.ld_unit_zero (S := S1x1024) origin]

/-- Any other point: the output block is computed from the x block, the panel the buffer holds, and the bias piece. -/
theorem block_later (c : Dev nD) (i : grid0.Coords) (a2 : Memref sig .tc .vmem S256x4096 .f32) (h2 : a2.IsWhole)
    (a3 : Memref sig .tc .vmem S4096x1024 .f32) (h3 : a3.IsWhole) (a4 : Memref sig .tc .vmem S1x1024 .f32) (h4 : a4.IsWhole)
    (a5 : Memref sig .tc .vmem S256x1024 .f32) (h5 : a5.IsWhole) (a6 : Memref sig .tc .vmem S4096x1024 .bf16) (h6 : a6.IsWhole)
    (hc : ¬cond0_0 i) (x0 : Vec F S256x4096 .f32) (x1 : Vec F S4096x1024 .f32) (x2 : Vec F S1x1024 .f32)
    (xs : Vec F S4096x1024 .bf16) :
    out0_B_3 c i a2 h2 a3 h3 a4 h4 a5 h5 a6 h6 hc x0 x1 x2 xs = k0_pay2 x0 xs x2 := by
  unfold out0_B_3
  rw [View.read_writes_eq_canon _ _ _ (cover0_B_3 c i a2 h2 a3 h3 a4 h4 a5 h5 a6 h6 hc x0 x1 x2 xs)]
  unfold kernelRun0_B
  dsimp only
  rw [View.canon_unit_zero origin]
  simp only [View.readAt_eq_ld, h2.read_unread, h4.read_unread, h6.read_unread, View.ld_unit_zero (S := S256x4096) origin,
    View.ld_unit_zero (S := S4096x1024) origin, View.ld_unit_zero (S := S1x1024) origin]

end Cert.RowAffine.Pieces

end
-- ==== Proof.LibPlainDot.lean ====
/-
  A PLAIN MATRIX PRODUCT READ AT AN INDEX, generic in the three extents.

  For the dimension numbers of a plain product  [A, K] · [K, B] → [A, B]  (the left operand's axis 1 contracted
  with the right operand's axis 0, no batch axis: the library's `DotDims.plain A K B`), the sum over the
  contraction index set that the ideal instance gives a kernel's `tpu.matmul` and the host's `dot_general` is the
  textbook sum over `k : Fin K` of  l (r, k) · r (k, c)  at the output index (r, c):

  * `plain_sum`                — the re-indexing of the contraction sum through its one coordinate;
  * `matmul_zero_plain_apply`  — a kernel's matmul into the zero accumulator, read at an output index;
  * `dotGeneral_plain_apply`   — the host's dot_general, read at an output index;
  * `eq_plain`                 — any dimension-number record with these six lists IS `DotDims.plain`
                                 (the side condition is a proposition), so a printed record is replaced by it.

  Nothing here depends on a program.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {A K B : Nat}

/-- A dimension-number record for [A, K] · [K, B] → [A, B] whose six lists are the plain product's is the
    library's `DotDims.plain A K B`: the records differ at most in the proof of their side condition. -/
theorem eq_plain (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = []) : d = DotDims.plain A K B := by
  cases d
  simp only at h1 h2 h3 h4 h5 h6
  subst h1 h2 h3 h4 h5 h6
  rfl

/-- The contraction sum of a plain product at the output index `j = (r, c)`, re-indexed through the contraction's one
    coordinate: the sum over `k` of the left operand at (r, k) times the right operand at (k, c). -/
theorem plain_sum (l : (⟨2, ![A, K]⟩ : Shape).Idx → EReal) (r : (⟨2, ![K, B]⟩ : Shape).Idx → EReal)
    (j : (⟨2, ![A, B]⟩ : Shape).Idx) :
    ∑ q : (DotDims.plain A K B).contr.Idx, l ((DotDims.plain A K B).lhsIdx j q) * r ((DotDims.plain A K B).rhsIdx j q)
      = ∑ k : Fin K, l (ix2 (j 0) k) * r (ix2 k (j 1)) := by
  rw [← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx j ((contrEquiv1 (DotDims.plain A K B) K rfl rfl).symm k) = ix2 (j 0) k :=
    funext fun a => Fin.ext (by
      match a with
      | ⟨0, _⟩ => rfl
      | ⟨1, _⟩ => exact ((DotDims.plain A K B).lhsIdx_val_of_single rfl j _).trans hk)
  have er : (DotDims.plain A K B).rhsIdx j ((contrEquiv1 (DotDims.plain A K B) K rfl rfl).symm k) = ix2 k (j 1) :=
    funext fun a => Fin.ext (by
      match a with
      | ⟨0, _⟩ => exact ((DotDims.plain A K B).rhsIdx_val_of_single rfl j _).trans hk
      | ⟨1, _⟩ => rfl)
  exact congrArg₂ (fun a b => l a * r b) el er

/-- A kernel's matmul of a plain product into the zero accumulator, at the ideal values, read at an output index. -/
theorem matmul_zero_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    matmul (DotDims.plain A K B) prec l r (constant ⟨2, ![A, B]⟩ .f32 0x00000000#32) j
      = ∑ k : Fin K, l (ix2 (j 0) k) * r (ix2 k (j 1)) :=
  (Ideal.matmul_constant_zero_apply (DotDims.plain A K B) prec l r j).trans (plain_sum l r j)

/-- The host's dot_general of a plain product, at the ideal values, read at an output index. -/
theorem dotGeneral_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    Host.dotGeneral (DotDims.plain A K B) prec l r j = ∑ k : Fin K, l (ix2 (j 0) k) * r (ix2 k (j 1)) :=
  (Ideal.dotGeneral_apply (DotDims.plain A K B) prec .single l r j).trans (plain_sum l r j)

end Cert.Lib.PlainDot

end
-- ==== Proof.Payload.lean ====
/-
  The kernel body's arithmetic, read at an index, on the extended reals.

  At one grid point the body holds a block x₀ : [256, 4096] of x, a panel s : [4096, 1024] (the 1024 columns of w
  the point works on, kept in the narrower float format — the same numbers on the extended reals) and the matching
  piece b₀ : [1, 1024] of the bias row. It stores the block [256, 1024] whose entry (p, q) is

      Σ_k x₀(p, k) · s(k, q)  +  b₀(0, q):

  the product is a matrix product into a zero accumulator, the bias row is repeated down the 256 rows, and the two
  are added entrywise. The panel itself is made from a block w₀ of w by a change of format, which is the identity.
-/
import proofs.«161255_g44427141710512_cont_8to1_c_84_19_alg».proof.Proof.Gen.KernelIdeal.Skeleton
import proofs.«161255_g44427141710512_cont_8to1_c_84_19_alg».proof.Proof.LibPlainDot
import Idealize.ShloMosaic.Lib.ValueIdx
import Idealize.ShloMosaic.Lib.Pipeline.Value

noncomputable section

open scoped BigOperators

namespace Cert.RowAffine.Body

open Idealize.ShloMosaic Idealize.ShloMosaic.ValueIdx
open Cert.KernelIdeal Cert.KernelIdeal.Gen

/-- The panel the first point of a pass stores is the block of w it loaded: the change of format is the identity on
    the extended reals, and so is a recast to the same shape. -/
theorem panel_eq (w0 : Vec Ideal S4096x1024 .f32) : k0_pay1 (F := Ideal) w0 = w0 := by
  unfold k0_pay1
  exact shapeCast_self _ _

/-- The printed dimension numbers of the body's product are the plain product's [256, 4096] · [4096, 1024]. -/
theorem dims_eq : dot_S256x4096_S4096x1024_S256x1024_1_0_0_1_n_n = DotDims.plain 256 4096 1024 :=
  Cert.Lib.PlainDot.eq_plain _ rfl rfl rfl rfl rfl rfl

/-- The bias row [1, 1024] repeated down 256 rows, read at (p, q), is the row's entry q. -/
theorem biasRows_apply (b0 : Vec Ideal S1x1024 .f32) (p : Fin 256) (q : Fin 1024) :
    broadcastTo S256x1024 (shapeCast S1x1024 b0 shapeCasts_S1x1024_S1x1024) broadcasts_S1x1024_S256x1024 (ix2 p q)
      = b0 (ix2 (0 : Fin 1) q) := by
  rw [shapeCast_self]
  exact broadcastTo_apply b0 broadcasts_S1x1024_S256x1024 (ix2 p q) (ix2 (0 : Fin 1) q) (fun a => by
    match a with
    | ⟨0, _⟩ => show 0 = if (1 : Nat) = 1 then 0 else p.val; rw [if_pos rfl]
    | ⟨1, _⟩ => show q.val = if (1024 : Nat) = 1 then 0 else q.val; rw [if_neg (by decide)])

/-- The block the body stores, at (p, q): the inner product of row p of the x block with column q of the panel, plus
    the bias piece's entry q. -/
theorem block_apply (x0 : Vec Ideal S256x4096 .f32) (s : Vec Ideal S4096x1024 .bf16) (b0 : Vec Ideal S1x1024 .f32)
    (p : Fin 256) (q : Fin 1024) :
    k0_pay2 (F := Ideal) x0 s b0 (ix2 p q)
      = (∑ k : Fin 4096, x0 (ix2 p k) * s (ix2 k q)) + b0 (ix2 (0 : Fin 1) q) := by
  unfold k0_pay2
  refine (addf_apply _ _ _).trans ?_
  refine congrArg₂ (· + ·) ?_ (biasRows_apply b0 p q)
  rw [dims_eq]
  exact Cert.Lib.PlainDot.matmul_zero_plain_apply none _ s (ix2 p q)

end Cert.RowAffine.Body

end
-- ==== Proof.Carried.lean ====
/-
  What the buffers hold after each grid point.

  The panel buffer is kept from one point to the next. By induction on the point's number n it holds, after point n,
  the column panel of w that point n works on: the first point of a pass (n ≡ 0 mod 32) stores the recast of the
  w block it was handed, which is that panel; any other point leaves the buffer as the point before left it, and the
  point before is in the same pass. So at EVERY point the output block is computed from the point's rows of x, the
  point's panel of w and the point's piece of the bias, and its entry (p, q) is the entry of x·w + b at the block's
  place in the result.
-/
import proofs.«161255_g44427141710512_cont_8to1_c_84_19_alg».proof.Proof.Blocks
import proofs.«161255_g44427141710512_cont_8to1_c_84_19_alg».proof.Proof.Pieces
import proofs.«161255_g44427141710512_cont_8to1_c_84_19_alg».proof.Proof.Payload

noncomputable section

namespace Cert.RowAffine.Carried

open Idealize.ShloMosaic Idealize.ShloMosaic.TcCoe Idealize.SL.Sem Idealize.ShloMosaic.ValueIdx
open Cert.KernelIdeal Cert.KernelIdeal.Gen Cert.RowAffine

variable (m : (ℓ : Loc nD τ sig) → Buf (Elt Ideal) ℓ)

/-- At the first point of a pass the panel buffer ends holding the point's panel of w. -/
theorem panel_at_first (c : Dev nD) (t : Fin cfg0.N) (h0 : t.val % 32 = 0) :
    (outsAt0 m c t.val t.isLt).2 = panelOf (m ((c : Thread nD τ).loc main_arg1)) t.val := by
  rw [outsAt0_A m c t h0]
  dsimp only
  refine (Pieces.panel_first c (grid0.coords t) (ms0_0 t) (hs0_0 t) (ms0_1 t) (hs0_1 t) (ms0_2 t) (hs0_2 t) (ms0_3 t) (hs0_3 t)
    scM0_0 (Memref.isWhole_whole _) ((hcond0_0 t).mpr h0) (iblk m c 0 t) (iblk m c 1 t) (iblk m c 2 t)).trans ?_
  refine (Body.panel_eq (iblk m c 1 t)).trans ?_
  exact Blocks.wBlock_eq m c t

/-- After every point n the panel buffer holds point n's panel of w. -/
theorem panel_after (c : Dev nD) : ∀ (n : ℕ) (h : n < cfg0.N),
    (outsAt0 m c n h).2 = panelOf (m ((c : Thread nD τ).loc main_arg1)) n
  | 0, h => panel_at_first m c ⟨0, h⟩ rfl
  | n + 1, h => by
    by_cases h0 : (n + 1) % 32 = 0
    · exact panel_at_first m c ⟨n + 1, h⟩ h0
    · rw [outsAt0_B m c ⟨n + 1, h⟩ h0]
      dsimp only
      unfold sout0_B_0
      show (outsAt0 m c n _).2 = _
      rw [panel_after c n, ← panelOf_pred _ (n + 1) h0]
      rfl

/-- The output block after point t, as the body's arithmetic on the point's pieces. -/
theorem block_after (c : Dev nD) (t : Fin cfg0.N) :
    (outsAt0 m c t.val t.isLt).1
      = k0_pay2 (F := Ideal) (iblk m c 0 t) (panelOf (m ((c : Thread nD τ).loc main_arg1)) t.val) (iblk m c 2 t) := by
  by_cases h0 : t.val % 32 = 0
  · rw [outsAt0_A m c t h0]
    dsimp only
    refine (Pieces.block_first c (grid0.coords t) (ms0_0 t) (hs0_0 t) (ms0_1 t) (hs0_1 t) (ms0_2 t) (hs0_2 t) (ms0_3 t) (hs0_3 t)
      scM0_0 (Memref.isWhole_whole _) ((hcond0_0 t).mpr h0) (iblk m c 0 t) (iblk m c 1 t) (iblk m c 2 t)).trans ?_
    exact congrArg (fun s : Vec Ideal S4096x1024 .bf16 => k0_pay2 (F := Ideal) (iblk m c 0 t) s (iblk m c 2 t))
      ((Body.panel_eq (iblk m c 1 t)).trans (Blocks.wBlock_eq m c t))
  · rw [outsAt0_B m c t h0]
    dsimp only
    refine (Pieces.block_later c (grid0.coords t) (ms0_0 t) (hs0_0 t) (ms0_1 t) (hs0_1 t) (ms0_2 t) (hs0_2 t) (ms0_3 t) (hs0_3 t)
      scM0_0 (Memref.isWhole_whole _) (fun h => h0 ((hcond0_0 t).mp h)) (iblk m c 0 t) (iblk m c 1 t) (iblk m c 2 t)
      (outsAt0 m c (t.val - 1) (Nat.lt_of_le_of_lt (Nat.sub_le _ _) t.isLt)).2).trans ?_
    exact congrArg (fun s : Vec Ideal S4096x1024 .bf16 => k0_pay2 (F := Ideal) (iblk m c 0 t) s (iblk m c 2 t))
      ((panel_after m c (t.val - 1) _).trans (panelOf_pred _ t.val h0))

/-- Entry (p, q) of the output block after point t is the entry of x·w + b at the block's place. -/
theorem block_after_apply (c : Dev nD) (t : Fin cfg0.N) (p : Fin 256) (q : Fin 1024) :
    (outsAt0 m c t.val t.isLt).1 (ix2 p q)
      = rowAffine (m ((c : Thread nD τ).loc main_arg0)) (m ((c : Thread nD τ).loc main_arg1))
          (m ((c : Thread nD τ).loc main_arg2)) (ix2 (rowOf t.val p) (colOf t.val q)) := by
  have ex := Blocks.xBlock_eq m c t
  have eb := Blocks.biasPiece_eq m c t
  rw [block_after m c t]
  refine (Body.block_apply (iblk m c 0 t) (panelOf (m ((c : Thread nD τ).loc main_arg1)) t.val) (iblk m c 2 t) p q).trans ?_
  rw [ex, eb]
  exact block_entry _ _ _ t.val p q

end Cert.RowAffine.Carried

end
-- ==== Proof.KernelValue.lean ====
/-
  The kernel's result array.

  Every grid point writes its output block back, and the block of point n = 32·a + r is rows 256·r …, columns
  1024·a … of the result: the 128 blocks tile the array [8192, 4096], the entry (i, j) lying in the block of the
  point 32·(j / 1024) + i / 256. What a point writes back is, entry by entry, x·w + b at the block's place; so after
  the run the result array is x·w + b, and the three arguments are as they were.
-/
import proofs.«161255_g44427141710512_cont_8to1_c_84_19_alg».proof.Proof.Carried
import proofs.«161255_g44427141710512_cont_8to1_c_84_19_alg».proof.Proof.Gen.KernelIdeal.Value

noncomputable section

namespace Cert.RowAffine.Kernel

open Idealize.ShloMosaic Idealize.ShloMosaic.TcCoe Idealize.SL.Sem Idealize.ShloMosaic.ValueIdx
open Idealize.ShloMosaic.Pipeline (Dat)
open Cert.KernelIdeal Cert.KernelIdeal.Gen Cert.RowAffine

variable (m : (ℓ : Loc nD τ sig) → Buf (Elt Ideal) ℓ) (ρ : Dev nD → PrngReg)

/-- x·w + b of the arguments as launched on core c. -/
abbrev result (c : Dev nD) : FVec Ideal SX .f32 :=
  rowAffine (m ((c : Thread nD τ).loc main_arg0)) (m ((c : Thread nD τ).loc main_arg1)) (m ((c : Thread nD τ).loc main_arg2))

/-- What point t writes back is block t of x·w + b. -/
theorem flushed_eq (c : Dev nD) (t : Fin cfg0.N) :
    (dats m 0 c).flushed 3 t = ((cfg0.win 3).blk t).view.read (Elt Ideal) (result m c) := by
  obtain ⟨-, -, -, -, -, -, e0, e1⟩ := Blocks.block_maps t
  have hN := Blocks.point_lt t
  rw [Cert.KernelIdeal.Value.flushed3]
  refine funext fun (y : S256x1024.Idx) => ?_
  obtain ⟨p, q, rfl⟩ : ∃ (p : Fin 256) (q : Fin 1024), y = ix2 p q := ⟨y 0, y 1, eq_ix2 y⟩
  show (outsAt0 m c t.val t.isLt).1 (ix2 p q) = result m c (((cfg0.win 3).blk t).view.emb (ix2 p q))
  rw [Carried.block_after_apply m c t p q]
  refine congrArg _ (funext fun a => Fin.ext ?_)
  match a with
  | ⟨0, _⟩ => show 256 * (t.val % 32) + p.val = win0_3.index t (0 : Fin 2) * 256 + 1 * p.val; omega
  | ⟨1, _⟩ => show 1024 * (t.val / 32 % 4) + q.val = win0_3.index t (1 : Fin 2) * 1024 + 1 * q.val; omega

/-- An index of the result is in point t's block iff each coordinate is in the block's range on its axis. -/
theorem mem_block (t : Fin cfg0.N) (i : S8192x4096.Idx) :
    i ∈ ((cfg0.win 3).blk t).view.set
      ↔ ∀ a : Fin 2, win0_3.index t a * S256x1024.size a ≤ (i a).val
          ∧ (i a).val < win0_3.index t a * S256x1024.size a + S256x1024.size a := by
  show i ∈ ((View.whole main_v1).slice (win0_3.rect t)).set ↔ _
  rw [View.set_slice_whole, Rect.mem_set_unit]
  exact Iff.rfl

/-- Every entry of the result lies in the block of some point. -/
theorem covered (i : S8192x4096.Idx) :
    ∃ t : Fin cfg0.N, (cfg0.win 3).flush t = true ∧ i ∈ ((cfg0.win 3).blk t).view.set := by
  have hi0 : (i 0).val < 8192 := idx2_lt0 i
  have hi1 : (i 1).val < 4096 := idx2_lt1 i
  have hN : cfg0.N = 128 := N_0
  have ht : 32 * ((i 1).val / 1024) + (i 0).val / 256 < cfg0.N := by omega
  refine ⟨⟨32 * ((i 1).val / 1024) + (i 0).val / 256, ht⟩, flush0_3 _, ?_⟩
  rw [mem_block]
  obtain ⟨-, -, -, -, -, -, e0, e1⟩ := Blocks.block_maps ⟨32 * ((i 1).val / 1024) + (i 0).val / 256, ht⟩
  dsimp only at e0 e1
  intro a
  match a with
  | ⟨0, _⟩ =>
    show win0_3.index ⟨32 * ((i 1).val / 1024) + (i 0).val / 256, ht⟩ (0 : Fin 2) * 256 ≤ (i 0).val
      ∧ (i 0).val < win0_3.index ⟨32 * ((i 1).val / 1024) + (i 0).val / 256, ht⟩ (0 : Fin 2) * 256 + 256
    omega
  | ⟨1, _⟩ =>
    show win0_3.index ⟨32 * ((i 1).val / 1024) + (i 0).val / 256, ht⟩ (1 : Fin 2) * 1024 ≤ (i 1).val
      ∧ (i 1).val < win0_3.index ⟨32 * ((i 1).val / 1024) + (i 0).val / 256, ht⟩ (1 : Fin 2) * 1024 + 1024
    omega

/-- The result array after the run is x·w + b. -/
theorem final (c : Dev nD) : (dats m 0 c).arrAt 3 cfg0.N = result m c :=
  (dats m 0 c).arrAt_eq_of_cover 3 (result m c) (fun t _ => flushed_eq m c t) covered

/-- The kernel's run: it ends, without a fault, with the result array at x·w + b of the arguments as launched and the
    arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.RowAffine.Kernel

end
-- ==== Proof.lean ====
/-
  A linear layer, out = x·w + b, with x : [8192, 4096], w : [4096, 4096], b : [4096]: the kernel against its reference.

  The kernel walks a grid of 4 column panels × 32 row blocks. At the first row block of a panel it recasts the panel's
  1024 columns of w into a buffer of the narrower float format and keeps it for the rest of the panel; at every point it
  multiplies the point's 256 rows of x (recast to the narrower format) by the kept panel, accumulating in the wider format
  from zero, adds the panel's piece of the bias row to every row, and writes the [256, 1024] block of the result. The
  reference is one product x·w followed by the bias repeated down the rows and an entrywise sum.

  On the extended reals a change of float format is the identity, the kernel's product into a zero accumulator and the
  reference's product are the same sum Σ_k x(i, k)·w(k, j) over the 4096 values of k (the kernel does not split that sum:
  a point holds whole rows of x and whole columns of w), and the bias added is b(j) on both sides. So both result arrays
  are the one function `rowAffine` of the arguments, entry by entry, with no law of arithmetic needed beyond reading each
  operation at an index; the precondition is not used.

  The modules: RowAffine (the function), Tiling (which rows and columns a point works on; a block's entry is the
  function's entry at the block's place), RefSide (the reference's four operations compute it), Payload (the body's
  arithmetic at an index), Pieces (what one run of the body leaves in the buffers), Blocks (the pieces a point is handed
  are restrictions of the arguments), Carried (by induction on the point, the kept buffer holds the point's panel of w, so
  every output block is the function's block), KernelValue (the 128 blocks tile the result). The three frames are the
  generated ones; the idealization rewrote nothing, so there is nothing to preserve.
-/
import proofs.«161255_g44427141710512_cont_8to1_c_84_19_alg».proof.Defs
import proofs.«161255_g44427141710512_cont_8to1_c_84_19_alg».proof.Proof.Gen.Kernel
import proofs.«161255_g44427141710512_cont_8to1_c_84_19_alg».proof.Proof.Gen.Kernel.Skeleton
import proofs.«161255_g44427141710512_cont_8to1_c_84_19_alg».proof.Proof.Gen.Kernel.Launch
import proofs.«161255_g44427141710512_cont_8to1_c_84_19_alg».proof.Proof.Gen.Kernel.Points
import proofs.«161255_g44427141710512_cont_8to1_c_84_19_alg».proof.Proof.Gen.Kernel.Frame
import proofs.«161255_g44427141710512_cont_8to1_c_84_19_alg».proof.Proof.Gen.KernelIdeal
import proofs.«161255_g44427141710512_cont_8to1_c_84_19_alg».proof.Proof.Gen.KernelIdeal.Skeleton
import proofs.«161255_g44427141710512_cont_8to1_c_84_19_alg».proof.Proof.Gen.KernelIdeal.Launch
import proofs.«161255_g44427141710512_cont_8to1_c_84_19_alg».proof.Proof.Gen.KernelIdeal.Points
import proofs.«161255_g44427141710512_cont_8to1_c_84_19_alg».proof.Proof.Gen.KernelIdeal.Frame
import proofs.«161255_g44427141710512_cont_8to1_c_84_19_alg».proof.Proof.Gen.ReferenceIdeal
import proofs.«161255_g44427141710512_cont_8to1_c_84_19_alg».proof.Proof.Gen.Pre_finite_inputs
import proofs.«161255_g44427141710512_cont_8to1_c_84_19_alg».proof.Proof.Gen.KernelIdeal.Value
import proofs.«161255_g44427141710512_cont_8to1_c_84_19_alg».proof.Proof.Gen.ReferenceIdeal.Run
import proofs.«161255_g44427141710512_cont_8to1_c_84_19_alg».proof.Proof.Gen.ReferenceIdeal.Read
import proofs.«161255_g44427141710512_cont_8to1_c_84_19_alg».proof.Proof.RowAffine
import proofs.«161255_g44427141710512_cont_8to1_c_84_19_alg».proof.Proof.RefSide
import proofs.«161255_g44427141710512_cont_8to1_c_84_19_alg».proof.Proof.KernelValue
import Idealize.ShloMosaic.Adequacy
import Idealize.ShloMosaic.Init

noncomputable section

namespace Cert.Proof

open Idealize.ShloMosaic Idealize.SL.Sem

/-- The kernel as printed runs to the end without a fault and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Reading the kernel on the extended reals changed none of its operations. -/
theorem preserves : Cert.preserves_Kernel_KernelIdeal := trivial

/-- From memories that agree on x, w and b, the kernel's result array ends at x·w + b of its arguments, and the
    reference's at its four operations' value, which is x·w + b of the same arguments. -/
theorem algebraic : Cert.algebraic_KernelIdeal_ReferenceIdeal := by
  intro m ρ m' ρ' _ hagree
  refine ⟨fun c => Cert.RowAffine.Kernel.result m c, Cert.RowAffine.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.RowAffine.Ref.stage_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
